-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128 .f32) (main_arg3 : FVec F S128 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 24
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S128x128, .f32⟩
  | .hbm, ⟨20, _⟩ => ⟨S128x128, .bf16⟩
  | .hbm, ⟨21, _⟩ => ⟨S1x128, .f32⟩
  | .hbm, ⟨22, _⟩ => ⟨S1x128, .f32⟩
  | .hbm, ⟨23, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S5000x128_S5000 : S5000x128.Reduces [1] S5000
  shapeCasts_S5000_S5000x1 : S5000.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S128x128, .f32⟩
  | .hbm, ⟨20, _⟩ => ⟨S100000x128, .f32⟩
  | .hbm, ⟨21, _⟩ => ⟨S_, .f32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S_, .f32⟩
  | .hbm, ⟨26, _⟩ => ⟨S100000, .f32⟩
  | .hbm, ⟨27, _⟩ => ⟨S100000x1, .f32⟩
  | .hbm, ⟨28, _⟩ => ⟨S_, .f32⟩
  | .hbm, ⟨29, _⟩ => ⟨S100000x1, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000, .f32⟩
  | .hbm, ⟨36, _⟩ => ⟨S100000x1, .f32⟩
  | .hbm, ⟨37, _⟩ => ⟨S_, .f32⟩
  | .hbm, ⟨38, _⟩ => ⟨S100000x1, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x1, .f32⟩
  | .hbm, ⟨44, _⟩ => ⟨S100000x1, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibColumn.lean ====
/-
  Two layout operations of a column vector, read at an index written by coordinates.

  A sum along the rows of an `[a, n]` array kept as a column (`keepdims`) is a vector of `a` numbers cast to `[a, 1]`
  and then repeated along the second axis to `[a, b]`. Read at `(p, c)`, the cast gives the vector's entry `p` (the
  row-major position of `(p, 0)` in `[a, 1]` is `p`), and the repeat gives the column's entry `(p, 0)`, whatever `c`.
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to an `[a, 1]` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRowSum.lean ====
/-
  The sum along the second axis of an `[m, n]` array, read by coordinates.

  Summing an `[m, n]` array along its second axis leaves a vector of `m` numbers. The entry `p` of that vector is the
  sum of the `n` entries of row `p`: the index of the array lying over the reduced index `p` with coordinate `k` on the
  summed axis is `(p, k)`.
-/
import Idealize.ShloMosaic.PureOps.Ideal.Laws
import Idealize.ShloMosaic.Lib.ValueIdx

namespace Cert.LibRowSum

open Idealize.ShloMosaic Idealize.ShloMosaic.ValueIdx

/-- Over the reduced index `p`, the array index with coordinate `k` on the summed (second) axis is `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The sum of an `[m, n]` array of extended reals along its second axis is, at `p`, the sum of row `p`'s entries. -/
theorem multiReduction_row_apply {φ : FTy} {m n : ℕ} (src : FVec Ideal (⟨2, ![m, n]⟩ : Shape) φ) (acc : BitVec φ.bits)
    (h : (⟨2, ![m, n]⟩ : Shape).Reduces [1] (⟨1, ![m]⟩ : Shape)) (hφ : FKind.Formats φ)
    (hacc : acc = FKind.add.neutral φ hφ) (p : Fin m) :
    multiReduction .add [1] (⟨1, ![m]⟩ : Shape) src acc h hφ hacc (ix1 p) = ∑ k : Fin n, src (ix2 p k) :=
  (Ideal.multiReduction_add_single src acc h hφ hacc (ix1 p)).trans
    (Finset.sum_congr rfl fun k _ => congrArg src (lift_row h p k))

/-- The host's sum of an `[m, n]` array along its second axis from the start value `init` is, at `p`, `init` plus the
    sum of row `p`'s entries. -/
theorem hostReduceAdd_row_apply {m n : ℕ} (h' : (⟨2, ![m, n]⟩ : Shape).ReducesTo [1] (⟨1, ![m]⟩ : Shape))
    (h : (⟨2, ![m, n]⟩ : Shape).Reduces [1] (⟨1, ![m]⟩ : Shape)) (x : (⟨2, ![m, n]⟩ : Shape).Idx → EReal) (init : EReal)
    (p : Fin m) : Ideal.hostReduceAdd h' x init (ix1 p) = init + ∑ k : Fin n, x (ix2 p k) :=
  (Ideal.hostReduceAdd_single h' h x init (ix1 p)).trans
    (congrArg (init + ·) (Finset.sum_congr rfl fun k _ => congrArg x (lift_row h p k)))

end Cert.LibRowSum
-- ==== Proof.RowNorm.lean ====
/-
  One row of the layer, as a function of 128-vectors over the extended reals.

  A row `a` of the aggregated features is sent through the linear map `w` (entry `j` of the image is the sum over `k` of
  `a k * w k j`), clipped below at zero, and the node's own feature row `r` is added. The resulting row `x` is then
  normalised: its mean (the sum of its 128 entries divided by 128) is subtracted, the mean of the squares of the
  centred entries plus a small constant is sent through the reciprocal square root, and the centred entry times that
  number is scaled by `g` and shifted by `b`, entry by entry.

  The three float constants (zero, 128 and the small constant) are kept as their binary words: both programs carry the
  same words, so their values are never needed.
-/
import Idealize.ShloMosaic.PureOps.Ideal.Laws
import Idealize.ShloMosaic.Lib.ValueIdx

noncomputable section

namespace Cert.GraphLayer

open Idealize.ShloMosaic Idealize.ShloMosaic.ValueIdx

/-- The linear image of the row `a` under `w`, clipped below at zero, plus the row `r`. -/
def mixed (a : Fin 128 → EReal) (w : Fin 128 → Fin 128 → EReal) (r : Fin 128 → EReal) (j : Fin 128) : EReal :=
  max (∑ k : Fin 128, a k * w k j) (Ideal.ofBits .f32 0x00000000#32) + r j

/-- The mean of a row: the sum of its entries divided by 128. -/
def mean (x : Fin 128 → EReal) : EReal :=
  Ideal.div (∑ j : Fin 128, x j) (Ideal.ofBits .f32 0x43000000#32)

/-- A row with its mean subtracted. -/
def centred (x : Fin 128 → EReal) (j : Fin 128) : EReal := x j - mean x

/-- The reciprocal square root of the mean square of the centred row, the small constant added first. -/
def scale (x : Fin 128 → EReal) : EReal :=
  Ideal.rsqrt (mean (fun j => centred x j * centred x j) + Ideal.ofBits .f32 0x3727C5AC#32)

/-- The normalised row, scaled by `g` and shifted by `b`. -/
def normed (x g b : Fin 128 → EReal) (j : Fin 128) : EReal :=
  centred x j * scale x * g j + b j

/-- The whole row computation. -/
def row (a : Fin 128 → EReal) (w : Fin 128 → Fin 128 → EReal) (r g b : Fin 128 → EReal) : Fin 128 → EReal :=
  normed (mixed a w r) g b

/-! ## Whole arrays -/

/-- The layer on whole arrays, the weights laid out input-by-output and the scale and shift given as `[1, 128]` rows:
    entry `i` of the result is the row computation on row `i 0` of the aggregated features `A` and of the nodes' own
    features `H`, at column `i 1`. -/
def rows (A H : (⟨2, ![100000, 128]⟩ : Shape).Idx → EReal) (Wt : (⟨2, ![128, 128]⟩ : Shape).Idx → EReal)
    (Gm Bt : (⟨2, ![1, 128]⟩ : Shape).Idx → EReal) (i : (⟨2, ![100000, 128]⟩ : Shape).Idx) : EReal :=
  row (fun k => A (ix2 (i 0) k)) (fun k c => Wt (ix2 k c)) (fun c => H (ix2 (i 0) c))
    (fun c => Gm (ix2 (0 : Fin 1) c)) (fun c => Bt (ix2 (0 : Fin 1) c)) (i 1)

/-- The layer on the arguments themselves: the weight matrix `W` is given output-by-input (entry `(c, k)` multiplies
    input `k` into output `c`), the scale `g` and the shift `b` as 128-vectors. -/
def layer (A H : (⟨2, ![100000, 128]⟩ : Shape).Idx → EReal) (W : (⟨2, ![128, 128]⟩ : Shape).Idx → EReal)
    (g b : (⟨1, ![128]⟩ : Shape).Idx → EReal) : (⟨2, ![100000, 128]⟩ : Shape).Idx → EReal :=
  rows A H (fun y => W (ix2 (y 1) (y 0))) (fun y => g (ix1 (y 1))) (fun y => b (ix1 (y 1)))

end Cert.GraphLayer

end
-- ==== Proof.BlockRow.lean ====
/-
  What the kernel body computes on one block of 5000 rows, read entry by entry.

  The body's one stored value is a tree of vector operations over the five loaded blocks: the aggregated rows `x0`, the
  nodes' own rows `x1`, the 128 × 128 weight block `x2` (already laid out input-by-output), and the scale and shift rows
  `x3`, `x4`. Entry `(p, q)` of the result depends only on row `p` of `x0` and `x1`: the matrix product at `(p, j)` is the
  sum over `k` of `x0 (p, k) * x2 (k, j)`; a sum along the lanes kept as a column and repeated along the row is the same
  number at every `q`; the narrowing of the product's operands is the identity on extended reals. So entry `(p, q)` is
  the row computation of `Cert.GraphLayer.row` on row `p`, at `q`.
-/
import proofs.«110325_j38774964748853_2_alg».proof.Proof.Gen.KernelIdeal.Skeleton
import proofs.«110325_j38774964748853_2_alg».proof.Proof.LibColumn
import proofs.«110325_j38774964748853_2_alg».proof.Proof.LibRowSum
import proofs.«110325_j38774964748853_2_alg».proof.Proof.RowNorm
import Idealize.ShloMosaic.Lib.ValueLayout
import Idealize.ShloMosaic.Lib.Pipeline.Value
import Idealize.ShloMosaic.PureOps.Ideal.Laws

noncomputable section

namespace Cert.GraphLayer.Block

open Idealize.ShloMosaic Idealize.ShloMosaic.ValueIdx
open Cert.KernelIdeal Cert.KernelIdeal.Gen

/-! ## The matrix product at an entry -/

theorem lhs_row (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem rhs_col (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product of a 5000 × 128 block with a 128 × 128 block into a zero accumulator is, at `(p, q)`, the sum over the
    shared axis of the products of the entries. -/
theorem linear_apply (a : FVec Ideal S5000x128 .bf16) (w : FVec Ideal S128x128 .bf16) (p : Fin 5000) (q : Fin 128) :
    matmul dot_S5000x128_S128x128_S5000x128_1_0_0_1_n_n none a w (constant S5000x128 .f32 0x00000000#32) (ix2 p q)
      = ∑ k : Fin 128, a (ix2 p k) * w (ix2 k q) := by
  show FloatOps.matmul dot_S5000x128_S128x128_S5000x128_1_0_0_1_n_n none a w (constant S5000x128 .f32 0x00000000#32) (ix2 p q) = _
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun c => Fin.ext (by
      match c with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun c => Fin.ext (by
      match c with
      | ⟨0, _⟩ => exact (dot_S5000x128_S128x128_S5000x128_1_0_0_1_n_n.rhsIdx_val_of_single rfl _ _).trans hk
      | ⟨1, _⟩ => exact rhs_col _ _)
  rw [el, er]

/-! ## The body's value in three layers -/

/-- The rows before normalisation: product, clip at zero, plus the nodes' own rows. -/
def pre (x0 x1 : FVec Ideal S5000x128 .f32) (x2 : FVec Ideal S128x128 .bf16) : FVec Ideal S5000x128 .f32 :=
  addf (maximumf (matmul dot_S5000x128_S128x128_S5000x128_1_0_0_1_n_n none
      (truncf .bf16 (shapeCast S5000x128 x0 shapeCasts_S5000x128_S5000x128) bitsLt_bf16_f32)
      (shapeCast S128x128 x2 shapeCasts_S128x128_S128x128) (constant S5000x128 .f32 0x00000000#32))
    (broadcast S5000x128 (Scalar.ofBits .f32 0x00000000#32))) x1

/-- The lane sums of a block divided by 128, kept as a column. -/
def meanCol (v : FVec Ideal S5000x128 .f32) : FVec Ideal S5000x1 .f32 :=
  divf (shapeCast S5000x1 (multiReduction .add [1] S5000 v 0x00000000#32 reduces_S5000x128_S5000 (.inl rfl) rfl)
    shapeCasts_S5000_S5000x1) (broadcast S5000x1 (Scalar.ofBits .f32 0x43000000#32))

/-- A block with its row means subtracted. -/
def centre (v : FVec Ideal S5000x128 .f32) : FVec Ideal S5000x128 .f32 :=
  subf v (broadcastTo S5000x128 (meanCol v) broadcasts_S5000x1_S5000x128)

/-- The normalisation of a block, scaled and shifted by the rows `x3`, `x4`. -/
def norm (v : FVec Ideal S5000x128 .f32) (x3 x4 : FVec Ideal S1x128 .f32) : FVec Ideal S5000x128 .f32 :=
  addf (mulf (mulf (centre v)
      (broadcastTo S5000x128 (rsqrt (addf (meanCol (mulf (centre v) (centre v)))
        (broadcast S5000x1 (Scalar.ofBits .f32 0x3727C5AC#32)))) broadcasts_S5000x1_S5000x128))
      (broadcastTo S5000x128 (shapeCast S1x128 x3 shapeCasts_S1x128_S1x128) broadcasts_S1x128_S5000x128))
    (broadcastTo S5000x128 (shapeCast S1x128 x4 shapeCasts_S1x128_S1x128) broadcasts_S1x128_S5000x128)

/-- The body's stored value is the normalisation of the rows before normalisation. -/
theorem payload_eq (x0 x1 : FVec Ideal S5000x128 .f32) (x2 : FVec Ideal S128x128 .bf16) (x3 x4 : FVec Ideal S1x128 .f32) :
    k0_pay1 (F := Ideal) x0 x1 x2 x3 x4 = norm (pre x0 x1 x2) x3 x4 := rfl

/-! ## Each layer at an entry -/

/-- The rows before normalisation, at `(p, j)`. -/
theorem pre_apply (x0 x1 : FVec Ideal S5000x128 .f32) (x2 : FVec Ideal S128x128 .bf16) (p : Fin 5000) (j : Fin 128) :
    pre x0 x1 x2 (ix2 p j)
      = mixed (fun k => x0 (ix2 p k)) (fun k c => x2 (ix2 k c)) (fun c => x1 (ix2 p c)) j := by
  unfold pre
  rw [shapeCast_self, shapeCast_self]
  show max (matmul dot_S5000x128_S128x128_S5000x128_1_0_0_1_n_n none (truncf .bf16 x0 bitsLt_bf16_f32) x2
      (constant S5000x128 .f32 0x00000000#32) (ix2 p j)) (Ideal.ofBits .f32 0x00000000#32) + x1 (ix2 p j) = _
  rw [linear_apply]
  rfl

/-- The column of row means, at row `p`: the mean of the row's 128 entries. -/
theorem meanCol_apply (v : FVec Ideal S5000x128 .f32) (p : Fin 5000) :
    meanCol v (ix2 p (0 : Fin 1)) = mean (fun c => v (ix2 p c)) := by
  unfold meanCol
  show Ideal.div (shapeCast S5000x1 (multiReduction .add [1] S5000 v 0x00000000#32 reduces_S5000x128_S5000 (.inl rfl) rfl)
    shapeCasts_S5000_S5000x1 (ix2 p (0 : Fin 1))) (Ideal.ofBits .f32 0x43000000#32) = _
  rw [Cert.LibColumn.shapeCast_a_a1_apply]
  exact congrArg (Ideal.div · (Ideal.ofBits .f32 0x43000000#32))
    (Cert.LibRowSum.multiReduction_row_apply v 0x00000000#32 reduces_S5000x128_S5000 (.inl rfl) rfl p)

/-- The centred block, at `(p, j)`. -/
theorem centre_apply (v : FVec Ideal S5000x128 .f32) (p : Fin 5000) (j : Fin 128) :
    centre v (ix2 p j) = centred (fun c => v (ix2 p c)) j := by
  unfold centre
  show v (ix2 p j) - broadcastTo S5000x128 (meanCol v) broadcasts_S5000x1_S5000x128 (ix2 p j) = _
  rw [Cert.LibColumn.broadcastTo_a1_ab_apply, meanCol_apply]
  rfl

/-- The normalised block, at `(p, q)`. -/
theorem norm_apply (v : FVec Ideal S5000x128 .f32) (x3 x4 : FVec Ideal S1x128 .f32) (p : Fin 5000) (q : Fin 128) :
    norm v x3 x4 (ix2 p q)
      = normed (fun c => v (ix2 p c)) (fun c => x3 (ix2 (0 : Fin 1) c)) (fun c => x4 (ix2 (0 : Fin 1) c)) q := by
  unfold norm
  rw [shapeCast_self, shapeCast_self]
  show centre v (ix2 p q)
      * broadcastTo S5000x128 (rsqrt (addf (meanCol (mulf (centre v) (centre v)))
          (broadcast S5000x1 (Scalar.ofBits .f32 0x3727C5AC#32)))) broadcasts_S5000x1_S5000x128 (ix2 p q)
      * broadcastTo S5000x128 x3 broadcasts_S1x128_S5000x128 (ix2 p q)
      + broadcastTo S5000x128 x4 broadcasts_S1x128_S5000x128 (ix2 p q) = _
  rw [Cert.LibColumn.broadcastTo_a1_ab_apply, broadcastTo_1b_ab_apply, broadcastTo_1b_ab_apply, centre_apply]
  show centred (fun c => v (ix2 p c)) q
      * Ideal.rsqrt (meanCol (mulf (centre v) (centre v)) (ix2 p (0 : Fin 1)) + Ideal.ofBits .f32 0x3727C5AC#32)
      * x3 (ix2 (0 : Fin 1) q) + x4 (ix2 (0 : Fin 1) q) = _
  rw [meanCol_apply]
  have hsq : (fun c => mulf (centre v) (centre v) (ix2 p c))
      = fun c => centred (fun c => v (ix2 p c)) c * centred (fun c => v (ix2 p c)) c :=
    funext fun c => by
      show centre v (ix2 p c) * centre v (ix2 p c) = _
      rw [centre_apply]
  rw [hsq]
  rfl

/-- ENTRY `(p, q)` OF THE BODY'S STORED VALUE is the row computation on row `p` of the loaded blocks, at `q`. -/
theorem payload_apply (x0 x1 : FVec Ideal S5000x128 .f32) (x2 : FVec Ideal S128x128 .bf16) (x3 x4 : FVec Ideal S1x128 .f32)
    (p : Fin 5000) (q : Fin 128) :
    k0_pay1 (F := Ideal) x0 x1 x2 x3 x4 (ix2 p q)
      = row (fun k => x0 (ix2 p k)) (fun k c => x2 (ix2 k c)) (fun c => x1 (ix2 p c))
          (fun c => x3 (ix2 (0 : Fin 1) c)) (fun c => x4 (ix2 (0 : Fin 1) c)) q := by
  rw [payload_eq, norm_apply]
  have hpre : (fun c => pre x0 x1 x2 (ix2 p c))
      = mixed (fun k => x0 (ix2 p k)) (fun k c => x2 (ix2 k c)) (fun c => x1 (ix2 p c)) :=
    funext fun c => pre_apply x0 x1 x2 p c
  rw [hpre]
  rfl

/-- The same against whole arrays: when row `p` of the two row blocks is row `i 0` of the arrays `A`, `H`, the three small
    blocks are the whole arrays `Wt`, `Gm`, `Bt`, and `q` is the column `i 1`, entry `(p, q)` of the stored value is entry
    `i` of the layer on those arrays. -/
theorem entry_eq (x0 x1 : FVec Ideal S5000x128 .f32) (x2 : FVec Ideal S128x128 .bf16) (x3 x4 : FVec Ideal S1x128 .f32)
    (A H : S100000x128.Idx → EReal) (Wt : S128x128.Idx → EReal) (Gm Bt : S1x128.Idx → EReal)
    (p : Fin 5000) (q : Fin 128) (i : S100000x128.Idx)
    (h0 : ∀ k : Fin 128, x0 (ix2 p k) = A (ix2 (i 0) k)) (h1 : ∀ k : Fin 128, x1 (ix2 p k) = H (ix2 (i 0) k))
    (h2 : x2 = Wt) (h3 : x3 = Gm) (h4 : x4 = Bt) (hq : i 1 = q) :
    k0_pay1 (F := Ideal) x0 x1 x2 x3 x4 (ix2 p q) = rows A H Wt Gm Bt i := by
  subst h2 h3 h4
  rw [payload_apply, funext h0, funext h1]
  unfold rows
  rw [hq]

end Cert.GraphLayer.Block

end
-- ==== Proof.FoundArrays.lean ====
/-
  The arrays the kernel's region finds, read at an index.

  Three of the arrays the region reads were written by operations before it: the weight block is the transposed weight
  matrix (narrowed, which is the identity on extended reals), and the scale and shift rows are the 128-vectors re-laid
  as `[1, 128]`. Read at an index, they turn the layer on the arrays as the region finds them into the layer on the
  arguments themselves; the aggregated features are left as the array the region finds.
-/
import proofs.«110325_j38774964748853_2_alg».proof.Proof.Gen.KernelIdeal.Frame
import proofs.«110325_j38774964748853_2_alg».proof.Proof.RowNorm
import Idealize.ShloMosaic.Lib.StableHlo.Run
import Idealize.ShloMosaic.Lib.ValueLayout

noncomputable section

namespace Cert.GraphLayer.Kernel

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The arrays the region finds -/

/-- The layer on the arrays as the region finds them. -/
def found (c : Dev nD) : S100000x128.Idx → EReal :=
  rows (V m c main_v9) (V m c main_arg0) (V m c main_v11) (V m c main_v12) (V m c main_v13)

/-- The weight block the region finds is the transposed weight matrix. -/
theorem found_weights (c : Dev nD) :
    (V m c main_v11 : S128x128.Idx → EReal) = fun y => (m ((c : Thread nD τ).loc main_arg1) : S128x128.Idx → EReal) (ix2 (y 1) (y 0)) := by
  have e : (V m c main_v11 : S128x128.Idx → EReal)
      = (truncf (F := Ideal) .bf16 (transpose S128x128 [1, 0] (m ((c : Thread nD τ).loc main_arg1) : S128x128.Idx → EReal)
            transposes_S128x128_S128x128_1_0) bitsLt_bf16_f32 : S128x128.Idx → EReal) := by
    dsimp only [Gen.V, Gen.hostOps0]; after_results <;> rfl
  rw [e]
  funext y
  obtain ⟨k, j, rfl⟩ : ∃ (k j : Fin 128), y = ix2 k j := ⟨y 0, y 1, eq_ix2 y⟩
  exact transpose_ix2_apply (m ((c : Thread nD τ).loc main_arg1) : S128x128.Idx → EReal) transposes_S128x128_S128x128_1_0 k j

/-- The scale row the region finds is the scale vector re-laid as `[1, 128]`. -/
theorem found_scale (c : Dev nD) :
    (V m c main_v12 : S1x128.Idx → EReal) = fun y => (m ((c : Thread nD τ).loc main_arg2) : S128.Idx → EReal) (ix1 (y 1)) := by
  have e : (V m c main_v12 : S1x128.Idx → EReal)
      = shapeCast S1x128 (m ((c : Thread nD τ).loc main_arg2) : S128.Idx → EReal) shapeCasts_S128_S1x128 := by
    dsimp only [Gen.V, Gen.hostOps0]; after_results <;> rfl
  rw [e]
  funext y
  obtain ⟨u, j, rfl⟩ : ∃ (u : Fin 1) (j : Fin 128), y = ix2 u j := ⟨y 0, y 1, eq_ix2 y⟩
  exact shapeCast_a_1a_apply (m ((c : Thread nD τ).loc main_arg2) : S128.Idx → EReal) shapeCasts_S128_S1x128 u j

/-- The shift row the region finds is the shift vector re-laid as `[1, 128]`. -/
theorem found_shift (c : Dev nD) :
    (V m c main_v13 : S1x128.Idx → EReal) = fun y => (m ((c : Thread nD τ).loc main_arg3) : S128.Idx → EReal) (ix1 (y 1)) := by
  have e : (V m c main_v13 : S1x128.Idx → EReal)
      = shapeCast S1x128 (m ((c : Thread nD τ).loc main_arg3) : S128.Idx → EReal) shapeCasts_S128_S1x128 := by
    dsimp only [Gen.V, Gen.hostOps0]; after_results <;> rfl
  rw [e]
  funext y
  obtain ⟨u, j, rfl⟩ : ∃ (u : Fin 1) (j : Fin 128), y = ix2 u j := ⟨y 0, y 1, eq_ix2 y⟩
  exact shapeCast_a_1a_apply (m ((c : Thread nD τ).loc main_arg3) : S128.Idx → EReal) shapeCasts_S128_S1x128 u j

/-- So the layer on the arrays the region finds is the layer on the arguments, over the aggregated features it finds. -/
theorem found_eq (c : Dev nD) :
    found m c = layer (V m c main_v9) (m ((c : Thread nD τ).loc main_arg0)) (m ((c : Thread nD τ).loc main_arg1))
      (m ((c : Thread nD τ).loc main_arg2)) (m ((c : Thread nD τ).loc main_arg3)) := by
  unfold found layer
  rw [found_weights, found_scale, found_shift, V_main_arg0]
  rfl

end Cert.GraphLayer.Kernel

end
-- ==== Proof.KernelArray.lean ====
/-
  The kernel's result array, from its blocks.

  The grid has 20 points; at point `t` the body sees rows `5000 t … 5000 t + 4999` of the aggregated features and of the
  nodes' own features, the whole weight block and the whole scale and shift rows, and writes rows `5000 t … 5000 t + 4999`
  of the result. A block's coordinate is always (block index) × (block size) + (coordinate inside the block), so what
  point `t` writes back is block `t` of ONE whole-array function, the layer on the arrays as the region finds them; the 20
  blocks cover the 100000 rows (row `r` lies in block `r / 5000`), so the result array ends holding that function.
-/
import proofs.«110325_j38774964748853_2_alg».proof.Proof.Gen.KernelIdeal.Value
import proofs.«110325_j38774964748853_2_alg».proof.Proof.BlockRow
import proofs.«110325_j38774964748853_2_alg».proof.Proof.FoundArrays
import Idealize.ShloMosaic.Lib.StableHlo.Run
import Idealize.ShloMosaic.Lib.ValueLayout

noncomputable section

namespace Cert.GraphLayer.Kernel

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The index maps, decided over the 20 points -/

theorem zero_offsets : (![0, 0] : Fin 2 → Nat) = fun _ => 0 := funext fun a => by fin_cases a <;> rfl

/-- The two row windows move with the output window along the rows; every other block index is zero. -/
theorem index_facts : ∀ t : Fin cfg0.N,
      win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every one of the 20 row blocks is some point's. -/
theorem index_onto : ∀ b : Fin 20, ∃ t : Fin cfg0.N, win0_5.index t (0 : Fin 2) = b.val :=
  (by decide +kernel : ∀ b : Fin 20, ∃ t : Fin grid0.N, win0_5.index t (0 : Fin 2) = b.val)

/-! ## The input blocks, read at an entry -/

/-- Row `p` of the aggregated-features block at point `t` is row `(block index) × 5000 + p` of the array. -/
theorem agg_block (c : Dev nD) (t : Fin cfg0.N) (p : Fin 5000) (k : Fin 128) (i : S100000x128.Idx)
    (hi : (i 0).val = win0_5.index t (0 : Fin 2) * 5000 + 1 * p.val) :
    iblk m c 0 t (ix2 p k) = V m c main_v9 (ix2 (i 0) k) := by
  have e := index_facts t
  unfold iblk
  have hA : V m c (Pipeline.arrRef spec0 0) = V m c main_v9 := rfl
  rw [hA]
  generalize V m c main_v9 = A
  rw [View.read_apply, cast_eq]
  refine congrArg A (funext fun a => Fin.ext ?_)
  match a with
  | ⟨0, _⟩ => show win0_0.index t (0 : Fin 2) * 5000 + 1 * p.val = (i 0).val; omega
  | ⟨1, _⟩ => show win0_0.index t (1 : Fin 2) * 128 + 1 * k.val = k.val; omega

/-- Row `p` of the nodes' own block at point `t` is row `(block index) × 5000 + p` of the array. -/
theorem own_block (c : Dev nD) (t : Fin cfg0.N) (p : Fin 5000) (k : Fin 128) (i : S100000x128.Idx)
    (hi : (i 0).val = win0_5.index t (0 : Fin 2) * 5000 + 1 * p.val) :
    iblk m c 1 t (ix2 p k) = V m c main_arg0 (ix2 (i 0) k) := by
  have e := index_facts t
  unfold iblk
  have hA : V m c (Pipeline.arrRef spec0 1) = V m c main_arg0 := rfl
  rw [hA]
  generalize V m c main_arg0 = A
  rw [View.read_apply, cast_eq]
  refine congrArg A (funext fun a => Fin.ext ?_)
  match a with
  | ⟨0, _⟩ => show win0_1.index t (0 : Fin 2) * 5000 + 1 * p.val = (i 0).val; omega
  | ⟨1, _⟩ => show win0_1.index t (1 : Fin 2) * 128 + 1 * k.val = k.val; omega

/-- The weight block at every point is the whole weight array. -/
theorem weight_block (c : Dev nD) (t : Fin cfg0.N) : (iblk m c 2 t : S128x128.Idx → EReal) = V m c main_v11 := by
  have e := index_facts t
  funext y
  unfold iblk
  have hA : V m c (Pipeline.arrRef spec0 2) = V m c main_v11 := rfl
  rw [hA]
  generalize V m c main_v11 = A
  rw [View.read_apply, cast_eq]
  refine congrArg A (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The scale block at every point is the whole scale row. -/
theorem scale_block (c : Dev nD) (t : Fin cfg0.N) : (iblk m c 3 t : S1x128.Idx → EReal) = V m c main_v12 := by
  have e := index_facts t
  funext y
  unfold iblk
  have hA : V m c (Pipeline.arrRef spec0 3) = V m c main_v12 := rfl
  rw [hA]
  generalize V m c main_v12 = A
  rw [View.read_apply, cast_eq]
  refine congrArg A (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The shift block at every point is the whole shift row. -/
theorem shift_block (c : Dev nD) (t : Fin cfg0.N) : (iblk m c 4 t : S1x128.Idx → EReal) = V m c main_v13 := by
  have e := index_facts t
  funext y
  unfold iblk
  have hA : V m c (Pipeline.arrRef spec0 4) = V m c main_v13 := rfl
  rw [hA]
  generalize V m c main_v13 = A
  rw [View.read_apply, cast_eq]
  refine congrArg A (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-! ## What each point writes back -/

/-- WHAT POINT `t` WRITES BACK is block `t` of the layer on the arrays the region finds. Entry `(p, q)` of the block is
    the stored value's entry `(p, q)`, which is the row computation on row `(block index) × 5000 + p` of the arrays. -/
theorem flushed_eq (c : Dev nD) (t : Fin cfg0.N) :
    (dats m 0 c).flushed 5 t = ((cfg0.win 5).blk t).view.read (Elt Ideal) (found m c) := by
  rw [Cert.KernelIdeal.Value.flushed5]
  unfold out0_5
  rw [View.canon_unit_zero zero_offsets]
  simp only [View.ld_unit_zero (S := S5000x128) zero_offsets, View.ld_unit_zero (S := S128x128) zero_offsets,
    View.ld_unit_zero (S := S1x128) zero_offsets]
  generalize hP : k0_pay1 (F := Ideal) (iblk m c 0 t) (iblk m c 1 t) (iblk m c 2 t) (iblk m c 3 t) (iblk m c 4 t) = P
  generalize hG : found m c = G
  have e := index_facts t
  funext j
  obtain ⟨p, q, rfl⟩ : ∃ (p : Fin 5000) (q : Fin 128), j = ix2 p q := ⟨j 0, j 1, eq_ix2 j⟩
  rw [View.read_apply, cast_eq]
  have hx : (cfg0.win 5).xinj (grid0.coords t) (ix2 p q) = ix2 p q := funext fun a => Fin.ext rfl
  refine (congrArg P hx).trans ?_
  have hrow : ((((cfg0.win 5).blk t).view.emb (ix2 p q)) 0).val = win0_5.index t (0 : Fin 2) * 5000 + 1 * p.val := rfl
  have hcol : (((cfg0.win 5).blk t).view.emb (ix2 p q)) 1 = q :=
    Fin.ext (by show win0_5.index t (1 : Fin 2) * 128 + 1 * q.val = q.val; omega)
  rw [← hP, ← hG]
  unfold found
  exact Block.entry_eq (iblk m c 0 t) (iblk m c 1 t) (iblk m c 2 t) (iblk m c 3 t) (iblk m c 4 t)
    (V m c main_v9) (V m c main_arg0) (V m c main_v11) (V m c main_v12) (V m c main_v13) p q
    (((cfg0.win 5).blk t).view.emb (ix2 p q))
    (fun k => agg_block m c t p k (((cfg0.win 5).blk t).view.emb (ix2 p q)) hrow)
    (fun k => own_block m c t p k (((cfg0.win 5).blk t).view.emb (ix2 p q)) hrow)
    (weight_block m c t) (scale_block m c t) (shift_block m c t) hcol

/-! ## The blocks cover the array -/

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v14).slice (win0_5.rect t)).set ↔ _
  rw [View.set_slice_whole, Rect.mem_set_unit]
  exact Iff.rfl

/-- Row `r` lies in block `r / 5000`: every index is in some writing point's block. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := index_onto ⟨(i 0).val / 5000, by omega⟩
  have ht' : win0_5.index t (0 : Fin 2) = (i 0).val / 5000 := ht
  obtain ⟨-, -, -, -, -, -, -, -, -, -, e51⟩ := index_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-! ## The array after the run -/

/-- THE RESULT ARRAY after the run is the layer on the arguments, over the aggregated features the region finds. -/
theorem final (c : Dev nD) :
    (dats m 0 c).arrAt 5 cfg0.N = layer (V m c main_v9) (m ((c : Thread nD τ).loc main_arg0))
      (m ((c : Thread nD τ).loc main_arg1)) (m ((c : Thread nD τ).loc main_arg2)) (m ((c : Thread nD τ).loc main_arg3)) :=
  ((dats m 0 c).arrAt_eq_of_cover 5 (found m c) (fun t _ => flushed_eq m c t) cover).trans (found_eq m c)

/-- The kernel's run with the result array named: the layer on the arguments. -/
theorem run : θ_run defs (onTc (τ := τ) (main (F := Ideal))) ⟨m, fun _ => 0, ρ⟩ fun r => ∀ c : Dev nD,
      r.2.mem ((c : Thread nD τ).loc main_v14) = layer (V m c main_v9) (m ((c : Thread nD τ).loc main_arg0))
        (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.GraphLayer.Kernel

end
-- ==== Proof.RefLayer.lean ====
/-
  The reference's result, read entry by entry.

  The reference computes the same layer on whole arrays: the aggregated features times the transposed weight matrix,
  clipped at zero, plus the nodes' own features; then along each row the mean, the centred row, the mean square, the
  reciprocal square root, the scale and the shift. Each stage's entry `(r, j)` depends on row `r` of the stage before it
  (a host sum is its start value, zero, plus the sum of the row's entries; a column repeated along the row is the same
  number at every `j`), so entry `(r, q)` of the result is the row computation on row `r`, at `q`.
-/
import proofs.«110325_j38774964748853_2_alg».proof.Proof.Gen.ReferenceIdeal.Read
import proofs.«110325_j38774964748853_2_alg».proof.Proof.RowNorm

noncomputable section

namespace Cert.GraphLayer.Reference

open Cert.ReferenceIdeal Cert.ReferenceIdeal.Gen Cert.ReferenceIdeal.Read
open Idealize.ShloMosaic Idealize.ShloMosaic.ValueIdx

variable (x0 : (⟨S100000x128, .f32⟩ : BufTy).Contents (Elt Ideal)) (x1 : (⟨S128x128, .f32⟩ : BufTy).Contents (Elt Ideal))
  (x2 x3 : (⟨S128, .f32⟩ : BufTy).Contents (Elt Ideal)) (x4 x5 : (⟨S1600000, .i32⟩ : BufTy).Contents (Elt Ideal))

/-! ## The stages' index maps at an index written by coordinates -/

theorem lhs_index (r : Fin 100000) (j k : Fin 128) : lidx_main_v11 (ix2 r j) k = ix2 r k :=
  funext fun a => Fin.ext (by match a with | ⟨0, _⟩ => rfl | ⟨1, _⟩ => rfl)

theorem rhs_index (r : Fin 100000) (j k : Fin 128) : idx_main_v10 (ridx_main_v11 (ix2 r j) k) = ix2 j k :=
  funext fun a => Fin.ext (by match a with | ⟨0, _⟩ => rfl | ⟨1, _⟩ => rfl)

theorem sum_index (r : Fin 100000) (u : Fin 1) (k : Fin 128) : idx_main_v14 (idx_main_v15 (ix2 r u)) k = ix2 r k :=
  funext fun a => Fin.ext (by match a with | ⟨0, _⟩ => rfl | ⟨1, _⟩ => rfl)

theorem sq_sum_index (r : Fin 100000) (u : Fin 1) (k : Fin 128) : idx_main_v21 (idx_main_v22 (ix2 r u)) k = ix2 r k :=
  funext fun a => Fin.ext (by match a with | ⟨0, _⟩ => rfl | ⟨1, _⟩ => rfl)

theorem col_index18 (r : Fin 100000) (j : Fin 128) : idx_main_v18 (ix2 r j) = ix2 r (0 : Fin 1) :=
  funext fun a => Fin.ext (by match a with | ⟨0, _⟩ => rfl | ⟨1, _⟩ => rfl)

theorem col_index25 (r : Fin 100000) (j : Fin 128) : idx_main_v25 (ix2 r j) = ix2 r (0 : Fin 1) :=
  funext fun a => Fin.ext (by match a with | ⟨0, _⟩ => rfl | ⟨1, _⟩ => rfl)

theorem col_index30 (r : Fin 100000) (j : Fin 128) : idx_main_v30 (ix2 r j) = ix2 r (0 : Fin 1) :=
  funext fun a => Fin.ext (by match a with | ⟨0, _⟩ => rfl | ⟨1, _⟩ => rfl)

theorem scale_index (r : Fin 100000) (j : Fin 128) : idx_main_v32 (idx_main_v33 (ix2 r j)) = ix1 j :=
  funext fun a => Fin.ext (by match a with | ⟨0, _⟩ => rfl)

theorem shift_index (r : Fin 100000) (j : Fin 128) : idx_main_v35 (idx_main_v36 (ix2 r j)) = ix1 j :=
  funext fun a => Fin.ext (by match a with | ⟨0, _⟩ => rfl)

/-! ## The stages at an entry -/

/-- The rows before normalisation, at `(r, j)`. -/
theorem pre_apply (r : Fin 100000) (j : Fin 128) :
    val_main_v13 (F := Ideal) x0 x1 x4 x5 (ix2 r j)
      = mixed (fun k => val_main_v9 (F := Ideal) x0 x4 x5 (ix2 r k)) (fun k c => x1 (ix2 c k)) (fun c => x0 (ix2 r c)) j := by
  rw [val_main_v13_apply, val_main_v12_apply, val_main_v11_apply, val_main_call0_v0_apply, val_main_call0_cst_apply]
  have hs : ∀ k : Fin 128, val_main_v9 (F := Ideal) x0 x4 x5 (lidx_main_v11 (ix2 r j) k) * val_main_v10 (F := Ideal) x1 (ridx_main_v11 (ix2 r j) k)
      = val_main_v9 (F := Ideal) x0 x4 x5 (ix2 r k) * x1 (ix2 j k) := fun k => by
    rw [val_main_v10_apply, lhs_index, rhs_index]
  rw [Finset.sum_congr rfl fun k _ => hs k]
  rfl

/-- The column of row means, at row `r`. -/
theorem mean_apply (r : Fin 100000) (u : Fin 1) :
    val_main_v17 (F := Ideal) x0 x1 x4 x5 (ix2 r u) = mean (fun c => val_main_v13 (F := Ideal) x0 x1 x4 x5 (ix2 r c)) := by
  rw [val_main_v17_apply, val_main_v15_apply, val_main_v14_apply, val_main_v16_apply, val_main_cst_2_apply, val_main_cst_1_apply]
  have hs : ∀ k : Fin 128, val_main_v13 (F := Ideal) x0 x1 x4 x5 (idx_main_v14 (idx_main_v15 (ix2 r u)) k)
      = val_main_v13 (F := Ideal) x0 x1 x4 x5 (ix2 r k) := fun k => by rw [sum_index]
  rw [Finset.sum_congr rfl fun k _ => hs k]
  show Ideal.div (Ideal.ofBits .f32 0x00000000#32 + ∑ k : Fin 128, val_main_v13 (F := Ideal) x0 x1 x4 x5 (ix2 r k))
    (Ideal.ofBits .f32 0x43000000#32) = _
  rw [Ideal.ofBits_zero_f32, zero_add]
  rfl

/-- The centred rows (the stage the squares are taken of), at `(r, j)`. -/
theorem centred_apply (r : Fin 100000) (j : Fin 128) :
    val_main_v19 (F := Ideal) x0 x1 x4 x5 (ix2 r j) = centred (fun c => val_main_v13 (F := Ideal) x0 x1 x4 x5 (ix2 r c)) j := by
  rw [val_main_v19_apply, val_main_v18_apply, col_index18, mean_apply]
  rfl

/-- The centred rows (the stage the result is built from), at `(r, j)`. -/
theorem centred_apply' (r : Fin 100000) (j : Fin 128) :
    val_main_v26 (F := Ideal) x0 x1 x4 x5 (ix2 r j) = centred (fun c => val_main_v13 (F := Ideal) x0 x1 x4 x5 (ix2 r c)) j := by
  rw [val_main_v26_apply, val_main_v25_apply, col_index25, mean_apply]
  rfl

/-- The column of mean squares of the centred rows, at row `r`. -/
theorem mean_sq_apply (r : Fin 100000) (u : Fin 1) :
    val_main_v24 (F := Ideal) x0 x1 x4 x5 (ix2 r u)
      = mean (fun c => centred (fun c => val_main_v13 (F := Ideal) x0 x1 x4 x5 (ix2 r c)) c
          * centred (fun c => val_main_v13 (F := Ideal) x0 x1 x4 x5 (ix2 r c)) c) := by
  rw [val_main_v24_apply, val_main_v22_apply, val_main_v21_apply, val_main_v23_apply, val_main_cst_4_apply, val_main_cst_3_apply]
  have hs : ∀ k : Fin 128, val_main_v20 (F := Ideal) x0 x1 x4 x5 (idx_main_v21 (idx_main_v22 (ix2 r u)) k)
      = centred (fun c => val_main_v13 (F := Ideal) x0 x1 x4 x5 (ix2 r c)) k
        * centred (fun c => val_main_v13 (F := Ideal) x0 x1 x4 x5 (ix2 r c)) k := fun k => by
    rw [sq_sum_index, val_main_v20_apply, centred_apply]
    rfl
  rw [Finset.sum_congr rfl fun k _ => hs k]
  show Ideal.div (Ideal.ofBits .f32 0x00000000#32 + _) (Ideal.ofBits .f32 0x43000000#32) = _
  rw [Ideal.ofBits_zero_f32, zero_add]
  rfl

/-- The column of scales, at row `r`. -/
theorem scale_apply (r : Fin 100000) (u : Fin 1) :
    val_main_v29 (F := Ideal) x0 x1 x4 x5 (ix2 r u) = scale (fun c => val_main_v13 (F := Ideal) x0 x1 x4 x5 (ix2 r c)) := by
  rw [val_main_v29_apply, val_main_v28_apply, mean_sq_apply, val_main_v27_apply, val_main_cst_5_apply]
  rfl

/-- THE REFERENCE'S RESULT is the layer on the arguments, over its aggregated features. -/
theorem result_eq :
    val_main_v37 (F := Ideal) x0 x1 x2 x3 x4 x5 = layer (val_main_v9 (F := Ideal) x0 x4 x5) x0 x1 x2 x3 := by
  funext i
  obtain ⟨r, q, rfl⟩ : ∃ (r : Fin 100000) (q : Fin 128), i = ix2 r q := ⟨i 0, i 1, eq_ix2 i⟩
  rw [val_main_v37_apply, val_main_v34_apply, val_main_v31_apply, val_main_v36_apply, val_main_v35_apply, shift_index,
    val_main_v33_apply, val_main_v32_apply, scale_index, val_main_v30_apply, col_index30, scale_apply, centred_apply']
  have hpre : (fun c => val_main_v13 (F := Ideal) x0 x1 x4 x5 (ix2 r c))
      = mixed (fun k => val_main_v9 (F := Ideal) x0 x4 x5 (ix2 r k)) (fun k c => x1 (ix2 c k)) (fun c => x0 (ix2 r c)) :=
    funext fun c => pre_apply x0 x1 x4 x5 r c
  rw [hpre]
  rfl

end Cert.GraphLayer.Reference

end
-- ==== Proof.Aggregate.lean ====
/-
  The aggregated features are one array in both programs.

  Both programs open with the same operations: negative source indices are wrapped by adding 100000, the rows of the
  node features are gathered at the source indices, and the gathered rows are added into a zero array at the
  destination indices. The kernel's program does this before its region, the reference before its matrix product; the
  two terms are the same operations of the same arguments, so the array the region finds is the reference's stage, and
  neither the gather nor the scatter is ever opened.
-/
import proofs.«110325_j38774964748853_2_alg».proof.Proof.Gen.KernelIdeal.Frame
import proofs.«110325_j38774964748853_2_alg».proof.Proof.Gen.ReferenceIdeal.Read
import Idealize.ShloMosaic.Lib.StableHlo.Run

noncomputable section

namespace Cert.GraphLayer

open Idealize.ShloMosaic Idealize.ShloMosaic.TcCoe Idealize.SL.Sem Idealize.ShloMosaic.StableHlo

/-- The aggregated features the kernel's region finds are the reference's aggregation stage of the kernel's arguments. -/
theorem aggregate_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v9 : Cert.KernelIdeal.S100000x128.Idx → EReal)
      = Cert.ReferenceIdeal.Read.val_main_v9 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg4))
          (m ((c : Thread Cert.KernelIdeal.nD Cert.KernelIdeal.τ).loc Cert.KernelIdeal.main_arg5)) := by
  dsimp only [Cert.KernelIdeal.Gen.V, Cert.KernelIdeal.Gen.hostOps0]
  after_results
  rfl

end Cert.GraphLayer

end
-- ==== Proof.lean ====
/-
  A graph-convolution layer on 100000 nodes with 128 features: the kernel against its reference, over the extended reals.

  Both programs first aggregate: the node features are gathered along the edges' source indices and added into a zero
  array at the destination indices. Then, row by row, the aggregated features go through the linear map (the transposed
  weight matrix), are clipped below at zero, the node's own features are added, and the row is normalised (mean
  subtracted, times the reciprocal square root of the mean square plus a small constant), scaled and shifted.

  The kernel does the row computation in 20 blocks of 5000 rows on the matrix unit with narrowed operands; the reference
  does it with whole-array operations. Over the extended reals narrowing is the identity, a product into a zero
  accumulator and a host product are the same sum, and a lane sum and a host sum from zero are the same sum, so both
  result arrays are ONE function of the arguments, `Cert.GraphLayer.layer`, entry by entry. No law of arithmetic beyond
  `0 + x = x` is used, so the inputs' finiteness is never opened.

  The ideal pass rewrote nothing in this kernel, so the idealisation is the kernel's own text read over the extended
  reals.
-/
import proofs.«110325_j38774964748853_2_alg».proof.Defs
import proofs.«110325_j38774964748853_2_alg».proof.Proof.Gen.Kernel
import proofs.«110325_j38774964748853_2_alg».proof.Proof.Gen.Kernel.Skeleton
import proofs.«110325_j38774964748853_2_alg».proof.Proof.Gen.Kernel.Launch
import proofs.«110325_j38774964748853_2_alg».proof.Proof.Gen.Kernel.Points
import proofs.«110325_j38774964748853_2_alg».proof.Proof.Gen.Kernel.Frame
import proofs.«110325_j38774964748853_2_alg».proof.Proof.Gen.KernelIdeal
import proofs.«110325_j38774964748853_2_alg».proof.Proof.Gen.KernelIdeal.Skeleton
import proofs.«110325_j38774964748853_2_alg».proof.Proof.Gen.KernelIdeal.Launch
import proofs.«110325_j38774964748853_2_alg».proof.Proof.Gen.KernelIdeal.Points
import proofs.«110325_j38774964748853_2_alg».proof.Proof.Gen.KernelIdeal.Frame
import proofs.«110325_j38774964748853_2_alg».proof.Proof.Gen.ReferenceIdeal
import proofs.«110325_j38774964748853_2_alg».proof.Proof.Gen.Pre_finite_inputs
import proofs.«110325_j38774964748853_2_alg».proof.Proof.Gen.KernelIdeal.Value
import proofs.«110325_j38774964748853_2_alg».proof.Proof.Gen.ReferenceIdeal.Run
import proofs.«110325_j38774964748853_2_alg».proof.Proof.Gen.ReferenceIdeal.Read
import proofs.«110325_j38774964748853_2_alg».proof.Proof.KernelArray
import proofs.«110325_j38774964748853_2_alg».proof.Proof.RefLayer
import proofs.«110325_j38774964748853_2_alg».proof.Proof.Aggregate
import Idealize.ShloMosaic.Adequacy
import Idealize.ShloMosaic.Init

noncomputable section

namespace Cert.Proof

open Idealize.ShloMosaic Idealize.ShloMosaic.TcCoe Idealize.SL.Sem

/-- The kernel, read at machine words, runs and leaves its arguments unchanged. -/
theorem frame_kernel : Cert.frame_Kernel := fun m ρ _ => Cert.Kernel.Gen.frame m ρ

/-- The kernel, read over the extended reals, runs and leaves its arguments unchanged. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the idealised kernel. -/
theorem preserves : Cert.preserves_Kernel_KernelIdeal := trivial

/-- From memories agreeing on the arguments both programs end with the layer on the arguments in their result array:
    the kernel by its blocks, the reference stage by stage, the aggregated features one array in both. -/
theorem algebraic : Cert.algebraic_KernelIdeal_ReferenceIdeal := by
  intro m ρ m' ρ' _ hagree
  refine ⟨fun c => Cert.GraphLayer.layer (Cert.KernelIdeal.Gen.V m c Cert.KernelIdeal.main_v9)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.GraphLayer.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.GraphLayer.Reference.result_eq,
    (hagree c).1, (hagree c).2.1, (hagree c).2.2.1, (hagree c).2.2.2.1, (hagree c).2.2.2.2.1, (hagree c).2.2.2.2.2,
    ← Cert.GraphLayer.aggregate_eq m c]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
